-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8x2048x8192 : Shape := ⟨3, ![8, 2048, 8192]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x2048x8192 : S_.BroadcastsInDim S8x2048x8192 (![] : Fin 0 → Fin S8x2048x8192.rank)
  reducesTo_S8x2048x8192_S_d0_1_2 : S8x2048x8192.ReducesTo [0, 1, 2] S_

variable [Facts]

def fn {F : FTy → Type} [FloatOps F] (main_arg0 : FVec F S16384x2048 .f32) (main_arg1 : FVec F S8x2048x8192 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8x2048x8192 .f32 := Host.absf main_arg1
  let main_cst_0 : FVec F S_ .f32 := constant S_ .f32 0x7F800000#32
  let main_v5 : FVec F S8x2048x8192 .f32 := broadcastInDim S8x2048x8192 ![] bcast_S_S8x2048x8192 main_cst_0
  let main_v6 : IVec S8x2048x8192 1 := cmpf .olt main_v4 main_v5
  let main_c_1 : IVec S_ 1 := constantI S_ 1 1#1
  let main_v7 : IVec S_ 1 := (fun x v => Host.reduce IntOp.andi x v reducesTo_S8x2048x8192_S_d0_1_2 h_S_) main_v6 main_c_1
  let main_v8 : IVec S_ 1 := andi main_v3 main_v7
  main_v8
-- ==== Kernel.lean ====
abbrev S16384x2048 : Shape := ⟨2, ![16384, 2048]⟩
abbrev S8x2048x8192 : Shape := ⟨3, ![8, 2048, 8192]⟩
abbrev S32 : Shape := ⟨1, ![32]⟩
abbrev S16384x8192 : Shape := ⟨2, ![16384, 8192]⟩
abbrev S512x2048 : Shape := ⟨2, ![512, 2048]⟩
abbrev S1x2048x1024 : Shape := ⟨3, ![1, 2048, 1024]⟩
abbrev S1 : Shape := ⟨1, ![1]⟩
abbrev S512x1024 : Shape := ⟨2, ![512, 1024]⟩
abbrev S2048x1024 : Shape := ⟨2, ![2048, 1024]⟩

abbrev nBuf : Space → Nat
  | .hbm => 4
  | .vmem => 6
  | .smem => 1
  | _ => 0

abbrev bufTy : (tb : Table) → Fin (tcTables nBuf tb) → BufTy
  | .hbm, ⟨0, _⟩ => ⟨S16384x2048, .f32⟩
  | .hbm, ⟨1, _⟩ => ⟨S8x2048x8192, .f32⟩
  | .hbm, ⟨2, _⟩ => ⟨S16384x2048, .bf16⟩
  | .hbm, ⟨3, _⟩ => ⟨S16384x8192, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S512x1024, .f32⟩
  | .local _ .vmem, ⟨5, _⟩ => ⟨S512x1024, .f32⟩
  | .local _ .smem, ⟨0, _⟩ => ⟨S32, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 32], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S32) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bitsLt_bf16_f32 : FTy.bits .bf16 < FTy.bits .f32
  numel1_S1 : S1.numel = 1
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x1024_S512x1024_0_0 : ∀ a, (![0, 0] : Fin 2 → Nat) a + S512x1024.size a ≤ S512x1024.size a
  h_S512x1024 : 0 < S512x1024.numel
  dot_S512x2048_S2048x1024_S512x1024_1_0_0_1_n_n_wf : DotDims.WF S512x2048 S2048x1024 S512x1024 [1] [0] [0] [1] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .bf16 = 32 ∨ (Rect.block (s := S16384x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x8192.size a
  hwx0_2 : ∀ i : grid0.Coords, EltTy.bits .f32 = 32 ∨ (Rect.block (s := S16384x8192) S512x1024.size (cc0_transform_2 i) (hinb0_2 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev spec0_0 : Pipeline.WinSpec sig grid0.rank :=
  Pipeline.WinSpec.ofSpec (Memref.whole main_v0) S512x2048.size reads0_0 false false 2 stage0_0 sem0_0 nbuf0_0 hstage0_0

abbrev spec0_1 : Pipeline.WinSpec sig grid0.rank :=
  Pipeline.WinSpec.ofSpec (Memref.whole main_arg1) S1x2048x1024.size reads0_1 false false 2 stage0_1 sem0_1 nbuf0_1 hstage0_1

abbrev spec0_2 : Pipeline.WinSpec sig grid0.rank :=
  Pipeline.WinSpec.ofSpec (Memref.whole main_v1) S512x1024.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x2048x1024.size a ≤ S8x2048x8192.size a), EltTy.bits .f32 = 32 ∨ (Rect.block (s := S8x2048x8192) S1x2048x1024.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S16384x2048 : Shape := ⟨2, ![16384, 2048]⟩
abbrev S8x2048x8192 : Shape := ⟨3, ![8, 2048, 8192]⟩
abbrev S1024x2048 : Shape := ⟨2, ![1024, 2048]⟩
abbrev S1x2048x8192 : Shape := ⟨3, ![1, 2048, 8192]⟩
abbrev S2048x8192 : Shape := ⟨2, ![2048, 8192]⟩
abbrev S1024x8192 : Shape := ⟨2, ![1024, 8192]⟩
abbrev S1536x2048 : Shape := ⟨2, ![1536, 2048]⟩
abbrev S1536x8192 : Shape := ⟨2, ![1536, 8192]⟩
abbrev S2048x2048 : Shape := ⟨2, ![2048, 2048]⟩
abbrev S2560x2048 : Shape := ⟨2, ![2560, 2048]⟩
abbrev S2560x8192 : Shape := ⟨2, ![2560, 8192]⟩
abbrev S3072x2048 : Shape := ⟨2, ![3072, 2048]⟩
abbrev S3072x8192 : Shape := ⟨2, ![3072, 8192]⟩
abbrev S16384x8192 : Shape := ⟨2, ![16384, 8192]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x2048x8192, .f32⟩
  | .hbm, ⟨2, _⟩ => ⟨S1024x2048, .f32⟩
  | .hbm, ⟨3, _⟩ => ⟨S1x2048x8192, .f32⟩
  | .hbm, ⟨4, _⟩ => ⟨S2048x8192, .f32⟩
  | .hbm, ⟨5, _⟩ => ⟨S1024x8192, .f32⟩
  | .hbm, ⟨6, _⟩ => ⟨S1536x2048, .f32⟩
  | .hbm, ⟨7, _⟩ => ⟨S1x2048x8192, .f32⟩
  | .hbm, ⟨8, _⟩ => ⟨S2048x8192, .f32⟩
  | .hbm, ⟨9, _⟩ => ⟨S1536x8192, .f32⟩
  | .hbm, ⟨10, _⟩ => ⟨S2048x2048, .f32⟩
  | .hbm, ⟨11, _⟩ => ⟨S1x2048x8192, .f32⟩
  | .hbm, ⟨12, _⟩ => ⟨S2048x8192, .f32⟩
  | .hbm, ⟨13, _⟩ => ⟨S2048x8192, .f32⟩
  | .hbm, ⟨14, _⟩ => ⟨S2048x2048, .f32⟩
  | .hbm, ⟨15, _⟩ => ⟨S1x2048x8192, .f32⟩
  | .hbm, ⟨16, _⟩ => ⟨S2048x8192, .f32⟩
  | .hbm, ⟨17, _⟩ => ⟨S2048x8192, .f32⟩
  | .hbm, ⟨18, _⟩ => ⟨S2560x2048, .f32⟩
  | .hbm, ⟨19, _⟩ => ⟨S1x2048x8192, .f32⟩
  | .hbm, ⟨20, _⟩ => ⟨S2048x8192, .f32⟩
  | .hbm, ⟨21, _⟩ => ⟨S2560x8192, .f32⟩
  | .hbm, ⟨22, _⟩ => ⟨S2048x2048, .f32⟩
  | .hbm, ⟨23, _⟩ => ⟨S1x2048x8192, .f32⟩
  | .hbm, ⟨24, _⟩ => ⟨S2048x8192, .f32⟩
  | .hbm, ⟨25, _⟩ => ⟨S2048x8192, .f32⟩
  | .hbm, ⟨26, _⟩ => ⟨S3072x2048, .f32⟩
  | .hbm, ⟨27, _⟩ => ⟨S1x2048x8192, .f32⟩
  | .hbm, ⟨28, _⟩ => ⟨S2048x8192, .f32⟩
  | .hbm, ⟨29, _⟩ => ⟨S3072x8192, .f32⟩
  | .hbm, ⟨30, _⟩ => ⟨S2048x2048, .f32⟩
  | .hbm, ⟨31, _⟩ => ⟨S1x2048x8192, .f32⟩
  | .hbm, ⟨32, _⟩ => ⟨S2048x8192, .f32⟩
  | .hbm, ⟨33, _⟩ => ⟨S2048x8192, .f32⟩
  | .hbm, ⟨34, _⟩ => ⟨S16384x8192, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩

abbrev nD : Nat := 1
abbrev τ : Topo := Topo.v7x

variable {F : FTy → Type} [FloatOps F]

class Facts₀ : Prop where
  slices_S16384x2048_S1024x2048_0_0 : S16384x2048.Slices ![0, 0] S1024x2048
  slices_S8x2048x8192_S1x2048x8192_0_0_0 : S8x2048x8192.Slices ![0, 0, 0] S1x2048x8192
  shapeCasts_S1x2048x8192_S2048x8192 : S1x2048x8192.ShapeCasts S2048x8192
  slices_S16384x2048_S1536x2048_1024_0 : S16384x2048.Slices ![1024, 0] S1536x2048
  slices_S8x2048x8192_S1x2048x8192_1_0_0 : S8x2048x8192.Slices ![1, 0, 0] S1x2048x8192
  slices_S16384x2048_S2048x2048_2560_0 : S16384x2048.Slices ![2560, 0] S2048x2048
  slices_S8x2048x8192_S1x2048x8192_2_0_0 : S8x2048x8192.Slices ![2, 0, 0] S1x2048x8192
  slices_S16384x2048_S2048x2048_4608_0 : S16384x2048.Slices ![4608, 0] S2048x2048
  slices_S8x2048x8192_S1x2048x8192_3_0_0 : S8x2048x8192.Slices ![3, 0, 0] S1x2048x8192
  slices_S16384x2048_S2560x2048_6656_0 : S16384x2048.Slices ![6656, 0] S2560x2048
  slices_S8x2048x8192_S1x2048x8192_4_0_0 : S8x2048x8192.Slices ![4, 0, 0] S1x2048x8192
  slices_S16384x2048_S2048x2048_9216_0 : S16384x2048.Slices ![9216, 0] S2048x2048
  slices_S8x2048x8192_S1x2048x8192_5_0_0 : S8x2048x8192.Slices ![5, 0, 0] S1x2048x8192
  slices_S16384x2048_S3072x2048_11264_0 : S16384x2048.Slices ![11264, 0] S3072x2048
  slices_S8x2048x8192_S1x2048x8192_6_0_0 : S8x2048x8192.Slices ![6, 0, 0] S1x2048x8192
  slices_S16384x2048_S2048x2048_14336_0 : S16384x2048.Slices ![14336, 0] S2048x2048
  slices_S8x2048x8192_S1x2048x8192_7_0_0 : S8x2048x8192.Slices ![7, 0, 0] S1x2048x8192
  concatenates_S1024x8192_S1536x8192_S2048x8192_S2048x8192_S2560x8192_S2048x8192_S3072x8192_S2048x8192_S16384x8192_d0 : Shape.Concatenates [S1024x8192, S1536x8192, S2048x8192, S2048x8192, S2560x8192, S2048x8192, S3072x8192, S2048x8192] S16384x8192 0
  dot_S1024x2048_S2048x8192_S1024x8192_1_0_0_1_n_n_wf : DotDims.WF S1024x2048 S2048x8192 S1024x8192 [1] [0] [0] [1] [] []
  dot_S1536x2048_S2048x8192_S1536x8192_1_0_0_1_n_n_wf : DotDims.WF S1536x2048 S2048x8192 S1536x8192 [1] [0] [0] [1] [] []
  dot_S2048x2048_S2048x8192_S2048x8192_1_0_0_1_n_n_wf : DotDims.WF S2048x2048 S2048x8192 S2048x8192 [1] [0] [0] [1] [] []
  dot_S2560x2048_S2048x8192_S2560x8192_1_0_0_1_n_n_wf : DotDims.WF S2560x2048 S2048x8192 S2560x8192 [1] [0] [0] [1] [] []
  dot_S3072x2048_S2048x8192_S3072x8192_1_0_0_1_n_n_wf : DotDims.WF S3072x2048 S2048x8192 S3072x8192 [1] [0] [0] [1] [] []

variable [Facts₀]

def dot_S1024x2048_S2048x8192_S1024x8192_1_0_0_1_n_n : DotDims S1024x2048 S2048x8192 S1024x8192 where
  lhsContracting := [1]
  rhsContracting := [0]
  lhsNonContracting := [0]
  rhsNonContracting := [1]
  lhsBatch := []
  rhsBatch := []
  wf := dot_S1024x2048_S2048x8192_S1024x8192_1_0_0_1_n_n_wf
def dot_S1536x2048_S2048x8192_S1536x8192_1_0_0_1_n_n : DotDims S1536x2048 S2048x8192 S1536x8192 where
  lhsContracting := [1]
  rhsContracting := [0]
  lhsNonContracting := [0]
  rhsNonContracting := [1]
  lhsBatch := []
  rhsBatch := []
  wf := dot_S1536x2048_S2048x8192_S1536x8192_1_0_0_1_n_n_wf
def dot_S2048x2048_S2048x8192_S2048x8192_1_0_0_1_n_n : DotDims S2048x2048 S2048x8192 S2048x8192 where
  lhsContracting := [1]
  rhsContracting := [0]
  lhsNonContracting := [0]
  rhsNonContracting := [1]
  lhsBatch := []
  rhsBatch := []
  wf := dot_S2048x2048_S2048x8192_S2048x8192_1_0_0_1_n_n_wf
def dot_S2560x2048_S2048x8192_S2560x8192_1_0_0_1_n_n : DotDims S2560x2048 S2048x8192 S2560x8192 where
  lhsContracting := [1]
  rhsContracting := [0]
  lhsNonContracting := [0]
  rhsNonContracting := [1]
  lhsBatch := []
  rhsBatch := []
  wf := dot_S2560x2048_S2048x8192_S2560x8192_1_0_0_1_n_n_wf
def dot_S3072x2048_S2048x8192_S3072x8192_1_0_0_1_n_n : DotDims S3072x2048 S2048x8192 S3072x8192 where
  lhsContracting := [1]
  rhsContracting := [0]
  lhsNonContracting := [0]
  rhsNonContracting := [1]
  lhsBatch := []
  rhsBatch := []
  wf := dot_S3072x2048_S2048x8192_S3072x8192_1_0_0_1_n_n_wf

class Facts : Prop extends Facts₀ where

variable [Facts]
-- ==== Proof.GroupSpec.lean ====
/-
  The grouped product as one function of the two argument arrays.

  The 16384 rows of the left array h fall into eight consecutive groups of
  1024, 1536, 2048, 2048, 2560, 2048, 3072 and 2048 rows, that is, with boundaries
  at rows 1024, 2560, 4608, 6656, 9216, 11264 and 14336.  Row r of the result is row r
  of h times the matrix of r's group:

      out[r, c] = ∑ k, h[r, k] * w[grp r, k, c].

  Every boundary is a multiple of 512, so the 512 rows of one row tile lie in one
  group: the group of row 512 t + y (y < 512) is the group of row 512 t.
-/
import Idealize.ShloMosaic.PureOps.Ideal
import Idealize.ShloMosaic.Lib.ValueIdx

noncomputable section

namespace Cert.GroupSpec

open Idealize.ShloMosaic Idealize.ShloMosaic.ValueIdx

/-- The group of row `r`. -/
def grp (r : Nat) : Nat :=
  if r < 1024 then 0 else if r < 2560 then 1 else if r < 4608 then 2 else if r < 6656 then 3
  else if r < 9216 then 4 else if r < 11264 then 5 else if r < 14336 then 6 else 7

/-- There are eight groups. -/
theorem grp_lt (r : Nat) : grp r < 8 := by
  unfold grp; split_ifs <;> omega

/-- The rows of one 512-row tile share their group: no boundary falls strictly inside a tile. -/
theorem grp_tile (t y : Nat) (hy : y < 512) : grp (t * 512 + y) = grp (t * 512) := by
  unfold grp; split_ifs <;> omega

/-- The group of a row as an index of the first axis of the weights. -/
def grpIdx (r : Nat) : Fin 8 := ⟨grp r, grp_lt r⟩

/-- The grouped product: entry (r, c) is the sum over k of h[r, k] times w[group of r, k, c]. -/
def G (h : (⟨2, ![16384, 2048]⟩ : Shape).Idx → EReal) (w : (⟨3, ![8, 2048, 8192]⟩ : Shape).Idx → EReal) :
    (⟨2, ![16384, 8192]⟩ : Shape).Idx → EReal :=
  fun j => ∑ k : Fin 2048, h (ix2 (j 0) k) * w (ix3 (grpIdx (j 0).val) k (j 1))

end Cert.GroupSpec

end
-- ==== Proof.KernelTable.lean ====
/-
  The group table of the grouped product, as the launched region reads it.

  The left array's 16384 rows are cut into 32 row tiles of 512 rows, and a table of 32 words gives the
  group of each row tile: 0 0 1 1 1 2 2 2 2 3 3 3 3 4 4 4 4 4 5 5 5 5 6 6 6 6 6 6 7 7 7 7.  The program
  writes this table itself, as a literal, before the region starts, so its contents do not depend on the
  arguments.  At grid point (column tile jt, row tile it) the weight window's block index is
  (table[it], 0, jt): every table word is below 8, jt is below 8, so the block [1, 2048, 1024] at that
  index lies inside the [8, 2048, 8192] weights — the side condition under which the region runs.
-/
import proofs.«173559_j31877247271320_2_alg».proof.Proof.Gen.Kernel.Frame
import Idealize.ShloMosaic.Lib.StableHlo.Run

set_option maxRecDepth 16384

noncomputable section

namespace Cert.Kernel.Table

open Cert.Kernel Cert.Kernel.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-- The table the region reads is the literal the program's first operation writes. -/
theorem tbl_eq : tbl m 0 = fun x => lit0 (S32.rowMajor x) := by
  unfold tbl
  show V m 0 main_c = _
  dsimp only [V, hostOps0]
  after_results
  rfl

/-- Every word of the table is below 8. -/
theorem lit_lt : ∀ k : Fin 32, (lit0 k).toNat < 8 := by decide

/-- A grid coordinate below 32, as a 32-bit word cast to an index, is itself. -/
theorem ofNat_toNat (n : Nat) (h : n < 32) : (Scalar.indexCast (BitVec.ofNat 32 n)).toNat = n := by
  show (BitVec.ofNat 32 n).toNat = n
  rw [BitVec.toNat_ofNat]; omega

/-- The word an index map reads at offset k of the table is the literal's entry k. -/
theorem word (k : Fin 32) (off : Fin 1 → Nat) (hoff : off 0 = k.val) (inb : ∀ a, off a + S1.size a ≤ S32.size a) (h1 : S1.numel = 1) :
    (tbl m).at 0 (Rect.unit (s := S32) off S1.size inb) h1 = lit0 k := by
  show tbl m 0 _ = _
  rw [tbl_eq]
  show lit0 _ = lit0 _
  congr 1
  apply Fin.ext
  refine (Shape.rowMajor_val_one (d := ![32]) _).trans ?_
  show off 0 + 1 * (Shape.Idx.first (h1.symm ▸ Nat.one_pos : 0 < S1.numel) (0 : Fin 1)).val = k.val
  have h0 := (Shape.Idx.first (h1.symm ▸ Nat.one_pos : 0 < S1.numel) (0 : Fin 1)).isLt
  have e : S1.size (0 : Fin 1) = 1 := by decide
  omega

/-- The weight window's block index at a grid point: (table entry of the row tile, 0, column tile). -/
theorem idx1 (i : grid0.Coords) :
    cc0_transform_1 k0_off1_inb numel1_S1 (tbl m) i = ![(lit0 ⟨(i 1).val, (i 1).isLt⟩).toNat, 0, (i 0).val] := by
  have hw := word m ⟨(i 1).val, (i 1).isLt⟩ (k0_off1 i)
    (by show (Scalar.indexCast (BitVec.ofNat 32 (i 1).val)).toNat = _; exact ofNat_toNat _ (i 1).isLt) (k0_off1_inb i) numel1_S1
  have h8 : (i 0).val < 8 := (i 0).isLt
  funext a
  match a with
  | ⟨0, _⟩ => exact congrArg BitVec.toNat hw
  | ⟨1, _⟩ => rfl
  | ⟨2, _⟩ => show (BitVec.ofNat 32 (i 0).val).toNat = (i 0).val; rw [BitVec.toNat_ofNat]; omega

/-- The weight window's block lies inside the weights at every grid point: the side condition of the region. -/
theorem ok : Ok m := by
  intro i
  have h8 : (i 0).val < 8 := (i 0).isLt
  have hl := lit_lt ⟨(i 1).val, (i 1).isLt⟩
  refine ⟨fun a => ?_, Or.inl rfl⟩
  rw [idx1 m i]
  match a with
  | ⟨0, _⟩ => show ((lit0 ⟨(i 1).val, (i 1).isLt⟩).toNat + 1) * 1 ≤ 8; omega
  | ⟨1, _⟩ => show (0 + 1) * 2048 ≤ 2048; omega
  | ⟨2, _⟩ => show ((i 0).val + 1) * 1024 ≤ 8192; omega

end Cert.Kernel.Table

end
-- ==== Proof.KernelIdealTable.lean ====
/-
  The group table of the grouped product, as the launched region reads it.

  The left array's 16384 rows are cut into 32 row tiles of 512 rows, and a table of 32 words gives the
  group of each row tile: 0 0 1 1 1 2 2 2 2 3 3 3 3 4 4 4 4 4 5 5 5 5 6 6 6 6 6 6 7 7 7 7.  The program
  writes this table itself, as a literal, before the region starts, so its contents do not depend on the
  arguments.  At grid point (column tile jt, row tile it) the weight window's block index is
  (table[it], 0, jt): every table word is below 8, jt is below 8, so the block [1, 2048, 1024] at that
  index lies inside the [8, 2048, 8192] weights — the side condition under which the region runs.
  Entry it of the table is the group of row 512 it (the specification's `grp`).
-/
import proofs.«173559_j31877247271320_2_alg».proof.Proof.Gen.KernelIdeal.Frame
import proofs.«173559_j31877247271320_2_alg».proof.Proof.GroupSpec
import Idealize.ShloMosaic.Lib.StableHlo.Run

set_option maxRecDepth 16384

noncomputable section

namespace Cert.KernelIdeal.Table

open Cert.KernelIdeal Cert.KernelIdeal.Gen Cert.GroupSpec
open Idealize.ShloMosaic Idealize.ShloMosaic.TcCoe Idealize.SL.Sem Idealize.ShloMosaic.StableHlo

variable {F : FTy → Type} [FloatOps F]
variable (m : (ℓ : Loc nD τ sig) → Buf (Elt F) ℓ)

/-- The table the region reads is the literal the program's first operation writes. -/
theorem tbl_eq : tbl m 0 = fun x => lit0 (S32.rowMajor x) := by
  unfold tbl
  show V m 0 main_c = _
  dsimp only [V, hostOps0]
  after_results
  rfl

/-- Every word of the table is below 8. -/
theorem lit_lt : ∀ k : Fin 32, (lit0 k).toNat < 8 := by decide

/-- Entry k of the table is the group of the first row of row tile k. -/
theorem lit_grp : ∀ k : Fin 32, (lit0 k).toNat = grp (k.val * 512) := by decide

/-- The grid is 8 column tiles by 32 row tiles, the row tile running fastest: point t is column tile t / 32,
    row tile t % 32. -/
theorem coords_val : ∀ t : Fin grid0.N, (grid0.coords t 0).val = t.val / 32 ∧ (grid0.coords t 1).val = t.val % 32 := by
  decide +kernel

/-- A grid coordinate below 32, as a 32-bit word cast to an index, is itself. -/
theorem ofNat_toNat (n : Nat) (h : n < 32) : (Scalar.indexCast (BitVec.ofNat 32 n)).toNat = n := by
  show (BitVec.ofNat 32 n).toNat = n
  rw [BitVec.toNat_ofNat]; omega

/-- The word an index map reads at offset k of the table is the literal's entry k. -/
theorem word (k : Fin 32) (off : Fin 1 → Nat) (hoff : off 0 = k.val) (inb : ∀ a, off a + S1.size a ≤ S32.size a) (h1 : S1.numel = 1) :
    (tbl m).at 0 (Rect.unit (s := S32) off S1.size inb) h1 = lit0 k := by
  show tbl m 0 _ = _
  rw [tbl_eq]
  show lit0 _ = lit0 _
  congr 1
  apply Fin.ext
  refine (Shape.rowMajor_val_one (d := ![32]) _).trans ?_
  show off 0 + 1 * (Shape.Idx.first (h1.symm ▸ Nat.one_pos : 0 < S1.numel) (0 : Fin 1)).val = k.val
  have h0 := (Shape.Idx.first (h1.symm ▸ Nat.one_pos : 0 < S1.numel) (0 : Fin 1)).isLt
  have e : S1.size (0 : Fin 1) = 1 := by decide
  omega

/-- The weight window's block index at a grid point: (table entry of the row tile, 0, column tile). -/
theorem idx1 (i : grid0.Coords) :
    cc0_transform_1 k0_off1_inb numel1_S1 (tbl m) i = ![(lit0 ⟨(i 1).val, (i 1).isLt⟩).toNat, 0, (i 0).val] := by
  have hw := word m ⟨(i 1).val, (i 1).isLt⟩ (k0_off1 i)
    (by show (Scalar.indexCast (BitVec.ofNat 32 (i 1).val)).toNat = _; exact ofNat_toNat _ (i 1).isLt) (k0_off1_inb i) numel1_S1
  have h8 : (i 0).val < 8 := (i 0).isLt
  funext a
  match a with
  | ⟨0, _⟩ => exact congrArg BitVec.toNat hw
  | ⟨1, _⟩ => rfl
  | ⟨2, _⟩ => show (BitVec.ofNat 32 (i 0).val).toNat = (i 0).val; rw [BitVec.toNat_ofNat]; omega

/-- The weight window's block lies inside the weights at every grid point: the side condition of the region. -/
theorem ok : Ok m := by
  intro i
  have h8 : (i 0).val < 8 := (i 0).isLt
  have hl := lit_lt ⟨(i 1).val, (i 1).isLt⟩
  refine ⟨fun a => ?_, Or.inl rfl⟩
  rw [idx1 m i]
  match a with
  | ⟨0, _⟩ => show ((lit0 ⟨(i 1).val, (i 1).isLt⟩).toNat + 1) * 1 ≤ 8; omega
  | ⟨1, _⟩ => show (0 + 1) * 2048 ≤ 2048; omega
  | ⟨2, _⟩ => show ((i 0).val + 1) * 1024 ≤ 8192; omega

end Cert.KernelIdeal.Table

end
-- ==== Proof.KernelIdealPayload.lean ====
/-
  What the kernel body stores, read at an index, over the extended reals.

  At a grid point the body loads a [512, 2048] block x of the left array and a [1, 2048, 1024] block y of the
  weights, drops y's unit axis, narrows it to bf16 (the identity on extended reals), and stores the matrix product
  of x and y accumulated into zero.  So entry (p, q) of what it stores is

      ∑ k, x[p, k] * y[0, k, q],

  the sum over the one contracted axis: the product's operand indices at output index (p, q) and contraction
  index k are (p, k) on the left and (k, q) on the right, and index (k, q) of the reshaped block is index
  (0, k, q) of the block, both being at row-major position 1024 k + q.
-/
import proofs.«173559_j31877247271320_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Payload

open Cert.KernelIdeal Cert.KernelIdeal.Gen
open Idealize.ShloMosaic Idealize.ShloMosaic.ValueIdx

/-- The body's product: [512, 2048] times [2048, 1024], contracting the left's axis 1 with the right's axis 0. -/
abbrev dd := dot_S512x2048_S2048x1024_S512x1024_1_0_0_1_n_n

/-- The left operand's index: row from the output index, -/
theorem lhs0 (i : S512x1024.Idx) (q : dd.contr.Idx) : (dd.lhsIdx i q 0).val = (i 0).val := by
  unfold DotDims.lhsIdx
  rw [dif_neg (show ¬(0 : Fin S512x2048.rank) ∈ dd.lhsBatch by decide), dif_pos (show (0 : Fin S512x2048.rank) ∈ dd.lhsNonContracting by decide)]
  rfl
/-- column the contraction index. -/
theorem lhs1 (i : S512x1024.Idx) (q : dd.contr.Idx) : (dd.lhsIdx i q 1).val = (q ⟨0, by decide⟩).val :=
  dd.lhsIdx_val_of_single rfl i q
/-- The right operand's index: row the contraction index, -/
theorem rhs0 (i : S512x1024.Idx) (q : dd.contr.Idx) : (dd.rhsIdx i q 0).val = (q ⟨0, by decide⟩).val :=
  dd.rhsIdx_val_of_single rfl i q
/-- column from the output index. -/
theorem rhs1 (i : S512x1024.Idx) (q : dd.contr.Idx) : (dd.rhsIdx i q 1).val = (i 1).val := by
  unfold DotDims.rhsIdx
  rw [dif_neg (show ¬(1 : Fin S2048x1024.rank) ∈ dd.rhsBatch by decide), dif_pos (show (1 : Fin S2048x1024.rank) ∈ dd.rhsNonContracting by decide)]
  rfl

/-- Dropping the weight block's unit axis: entry (k, q) of the matrix is entry (0, k, q) of the block. -/
theorem cast_w (v0 : Vec Ideal S1x2048x1024 .f32) (k : Fin 2048) (q : Fin 1024) :
    shapeCast S2048x1024 v0 shapeCasts_S1x2048x1024_S2048x1024 (ix2 k q) = v0 (ix3 (0 : Fin 1) k q) := by
  refine shapeCast_apply v0 shapeCasts_S1x2048x1024_S2048x1024 (ix2 k q) (ix3 (0 : Fin 1) k q) ?_
  rewrite [Shape.rowMajor_val_three, Shape.rowMajor_val_two]
  show (0 * 2048 + k.val) * 1024 + q.val = k.val * 1024 + q.val
  omega

/-- Entry (p, q) of what the body stores is the sum over k of x[p, k] times y[0, k, q]. -/
theorem pay_apply (v0 : Vec Ideal S1x2048x1024 .f32) (v3 : Vec Ideal S512x2048 .bf16) (p : Fin 512) (q : Fin 1024) :
    k0_pay1 (F := Ideal) v0 v3 (ix2 p q) = ∑ k : Fin 2048, v3 (ix2 p k) * v0 (ix3 (0 : Fin 1) k q) := by
  unfold k0_pay1
  refine (Ideal.matmul_constant_zero_apply dd none _ _ (ix2 p q)).trans ?_
  rw [← Equiv.sum_comp (ValueIdx.contrEquiv1 dd 2048 rfl rfl).symm]
  refine Finset.sum_congr rfl fun k _ => ?_
  have hk := ValueIdx.contrEquiv1_symm_val dd 2048 rfl rfl k
  have el : dd.lhsIdx (ix2 p q) ((ValueIdx.contrEquiv1 dd 2048 rfl rfl).symm k) = ix2 p k := funext fun a => Fin.ext (by
    match a with
    | ⟨0, _⟩ => exact lhs0 _ _
    | ⟨1, _⟩ => exact (lhs1 _ _).trans hk)
  have er : dd.rhsIdx (ix2 p q) ((ValueIdx.contrEquiv1 dd 2048 rfl rfl).symm k) = ix2 k q := funext fun a => Fin.ext (by
    match a with
    | ⟨0, _⟩ => exact (rhs0 _ _).trans hk
    | ⟨1, _⟩ => exact rhs1 _ _)
  rw [el, er, shapeCast_self]
  exact congrArg (v3 (ix2 p k) * ·) (cast_w v0 k q)

end Cert.KernelIdeal.Payload

end
-- ==== Proof.KernelIdealValue.lean ====
/-
  The kernel computes the grouped product.

  The region runs over a grid of 8 column tiles by 32 row tiles; point t is column tile t / 32 and row tile
  t % 32.  There it reads block (t % 32, 0) of the left array h, 512 rows by all 2048 columns; block
  (table[t % 32], 0, t / 32) of the weights w, one matrix, all 2048 rows, 1024 columns; and writes block
  (t % 32, t / 32) of the result, 512 by 1024.  The body stores the product of the two blocks, so entry
  (p, q) of what point t writes back is

      ∑ k, h[512 (t % 32) + p, k] * w[table[t % 32], k, 1024 (t / 32) + q].

  The table's entry for a row tile is the group of the tile's first row, and all 512 rows of a tile share
  their group, so table[t % 32] is the group of row 512 (t % 32) + p: what point t writes back is block t
  of the specification's G.  The output blocks of the 256 points tile the result — entry (r, c) lies in the
  block of point 32 (c / 1024) + r / 512 — so the result array ends holding G of the argument arrays.

  The left array reaches the region narrowed to bf16, which over the extended reals is the array itself.
-/
import proofs.«173559_j31877247271320_2_alg».proof.Proof.Gen.KernelIdeal.Frame
import proofs.«173559_j31877247271320_2_alg».proof.Proof.KernelIdealTable
import proofs.«173559_j31877247271320_2_alg».proof.Proof.KernelIdealPayload
import proofs.«173559_j31877247271320_2_alg».proof.Proof.GroupSpec
import Idealize.ShloMosaic.Lib.Pipeline.Value
import Idealize.ShloMosaic.Lib.StableHlo.Run
import Idealize.ShloMosaic.Lib.Tactic

set_option maxRecDepth 16384

noncomputable section

namespace Cert.KernelIdeal.Grouped

open Cert.KernelIdeal Cert.KernelIdeal.Gen Cert.KernelIdeal.Table Cert.KernelIdeal.Payload Cert.GroupSpec
open Idealize.ShloMosaic Idealize.ShloMosaic.TcCoe Idealize.SL.Sem Idealize.ShloMosaic.ValueIdx Idealize.ShloMosaic.StableHlo
open Idealize.ShloMosaic.Pipeline (Dat)

/-- A rank-2 block stored from offset (0, 0) is stored whole; likewise rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

section anyF
variable {F : FTy → Type} [FloatOps F]

/-- What the body leaves in the output's staging buffer is its one store's value: the product of the weight
    block x1 and the left block x0 (the body's loads read the staging buffers whole). -/
theorem out_eq (c : Dev nD) (i : grid0.Coords) (arg3 : Memref sig .tc .vmem S512x2048 .bf16) (harg3 : arg3.IsWhole)
    (arg4 : Memref sig .tc .vmem S1x2048x1024 .f32) (harg4 : arg4.IsWhole) (arg5 : Memref sig .tc .vmem S512x1024 .f32) (harg5 : arg5.IsWhole)
    (x0 : Vec F S512x2048 .bf16) (x1 : Vec F S1x2048x1024 .f32) (xt0 : TbBuf0 (F := F) c tbM0_0) :
    out0_A_2 c i arg3 harg3 arg4 harg4 arg5 harg5 x0 x1 xt0 = k0_pay1 x1 x0 := by
  unfold out0_A_2
  rw [View.read_writes_eq_canon _ _ _ (cover0_A_2 c i arg3 harg3 arg4 harg4 arg5 harg5 x0 x1 xt0)]
  unfold kernelRun0_A
  dsimp only
  rw [View.canon_unit_zero hz2]
  simp only [View.readAt_eq_ld, harg3.read_unread, harg4.read_unread, View.ld_unit_zero (S := S512x2048) hz2,
    View.ld_unit_zero (S := S1x2048x1024) hz3]

/-- Window 0's block index at a grid point: (row tile, 0). -/
theorem idx0 (i : grid0.Coords) : cc0_transform_0 i = ![(i 1).val, 0] := by
  have h32 : (i 1).val < 32 := (i 1).isLt
  funext a
  match a with
  | ⟨0, _⟩ => show (BitVec.ofNat 32 (i 1).val).toNat = (i 1).val; rw [BitVec.toNat_ofNat]; omega
  | ⟨1, _⟩ => rfl

/-- Window 2's block index at a grid point: (row tile, column tile). -/
theorem idx2 (i : grid0.Coords) : cc0_transform_2 i = ![(i 1).val, (i 0).val] := by
  have h32 : (i 1).val < 32 := (i 1).isLt
  have h8 : (i 0).val < 8 := (i 0).isLt
  funext a
  match a with
  | ⟨0, _⟩ => show (BitVec.ofNat 32 (i 1).val).toNat = (i 1).val; rw [BitVec.toNat_ofNat]; omega
  | ⟨1, _⟩ => show (BitVec.ofNat 32 (i 0).val).toNat = (i 0).val; rw [BitVec.toNat_ofNat]; omega

end anyF

variable (m : (ℓ : Loc nD τ sig) → Buf (Elt Ideal) ℓ) (ρ : Dev nD → PrngReg)

/-- The bf16 copy of the left array the region finds is, over the extended reals, the left array. -/
theorem V_v0 (c : Dev nD) : (V m c main_v0 : S16384x2048.Idx → EReal) = m ((c : Thread nD τ).loc main_arg0) := by
  dsimp only [V, hostOps0]
  after_results
  rfl

/-- The grid has 256 points. -/
theorem N256 (hO : Ok m) (t : Fin (cfgM m hO).N) : t.val < 256 := by
  have h : t.val < grid0.N := t.isLt
  have e : grid0.N = 256 := N_0
  omega

/-- The left block at point t, entry (p, k), is h[512 (t % 32) + p, k]. -/
theorem blk0_apply (hO : Ok m) (c : Dev nD) (t : Fin (cfgM m hO).N) (p : Fin 512) (k : Fin 2048) (r : Fin 16384)
    (hr : r.val = t.val % 32 * 512 + p.val) :
    iblk m hO c 0 t (ix2 p k) = m ((c : Thread nD τ).loc main_arg0) (ix2 r k) := by
  unfold iblk
  show V m c main_v0 ((((cfgM m hO).win 0).blk t).view.emb (ix2 p k)) = _
  refine (congrFun (V_v0 m c) _).trans ?_
  refine congrArg _ ?_
  funext a
  apply Fin.ext
  match a with
  | ⟨0, _⟩ =>
    show ((cfgM m hO).win 0).index t (0 : Fin 2) * 512 + 1 * p.val = r.val
    rw [show ((cfgM m hO).win 0).index t = cc0_transform_0 (grid0.coords t) from rfl, idx0]
    show (grid0.coords t 1).val * 512 + 1 * p.val = r.val
    rw [(coords_val t).2, hr]; omega
  | ⟨1, _⟩ =>
    show ((cfgM m hO).win 0).index t (1 : Fin 2) * 2048 + 1 * k.val = k.val
    rw [show ((cfgM m hO).win 0).index t = cc0_transform_0 (grid0.coords t) from rfl, idx0]
    show 0 * 2048 + 1 * k.val = k.val
    omega

/-- The weight block at point t, entry (0, k, q), is w[table[t % 32], k, 1024 (t / 32) + q]. -/
theorem blk1_apply (hO : Ok m) (c : Dev nD) (t : Fin (cfgM m hO).N) (k : Fin 2048) (q : Fin 1024) (g : Fin 8) (cc : Fin 8192)
    (hg : g.val = grp (t.val % 32 * 512)) (hc : cc.val = t.val / 32 * 1024 + q.val) :
    iblk m hO c 1 t (ix3 (0 : Fin 1) k q) = m ((c : Thread nD τ).loc main_arg1) (ix3 g k cc) := by
  unfold iblk
  show V m c main_arg1 ((((cfgM m hO).win 1).blk t).view.emb (ix3 (0 : Fin 1) k q)) = _
  refine (congrFun (V_main_arg1 m c) _).trans ?_
  refine congrArg _ ?_
  have hi : ((cfgM m hO).win 1).index t = ![(lit0 ⟨(grid0.coords t 1).val, (grid0.coords t 1).isLt⟩).toNat, 0, (grid0.coords t 0).val] :=
    idx1 m (grid0.coords t)
  funext a
  apply Fin.ext
  match a with
  | ⟨0, _⟩ =>
    show ((cfgM m hO).win 1).index t (0 : Fin 3) * 1 + 1 * 0 = g.val
    rw [hi]
    show (lit0 ⟨(grid0.coords t 1).val, (grid0.coords t 1).isLt⟩).toNat * 1 + 1 * 0 = g.val
    rw [lit_grp, hg]
    show grp ((grid0.coords t 1).val * 512) * 1 + 1 * 0 = _
    rw [(coords_val t).2]; omega
  | ⟨1, _⟩ =>
    show ((cfgM m hO).win 1).index t (1 : Fin 3) * 2048 + 1 * k.val = k.val
    rw [hi]
    show 0 * 2048 + 1 * k.val = k.val
    omega
  | ⟨2, _⟩ =>
    show ((cfgM m hO).win 1).index t (2 : Fin 3) * 1024 + 1 * q.val = cc.val
    rw [hi]
    show (grid0.coords t 0).val * 1024 + 1 * q.val = cc.val
    rw [(coords_val t).1, hc]; omega

/-- Entry (p, q) of point t's output block sits at (512 (t % 32) + p, 1024 (t / 32) + q) of the result. -/
theorem emb2 (hO : Ok m) (t : Fin (cfgM m hO).N) (p : Fin 512) (q : Fin 1024) (r : Fin 16384) (cc : Fin 8192)
    (hr : r.val = t.val % 32 * 512 + p.val) (hc : cc.val = t.val / 32 * 1024 + q.val) :
    (((cfgM m hO).win 2).blk t).view.emb (ix2 p q) = ix2 r cc := by
  funext a
  apply Fin.ext
  match a with
  | ⟨0, _⟩ =>
    show ((cfgM m hO).win 2).index t (0 : Fin 2) * 512 + 1 * p.val = r.val
    rw [show ((cfgM m hO).win 2).index t = cc0_transform_2 (grid0.coords t) from rfl, idx2]
    show (grid0.coords t 1).val * 512 + 1 * p.val = r.val
    rw [(coords_val t).2, hr]; omega
  | ⟨1, _⟩ =>
    show ((cfgM m hO).win 2).index t (1 : Fin 2) * 1024 + 1 * q.val = cc.val
    rw [show ((cfgM m hO).win 2).index t = cc0_transform_2 (grid0.coords t) from rfl, idx2]
    show (grid0.coords t 0).val * 1024 + 1 * q.val = cc.val
    rw [(coords_val t).1, hc]; omega

/-- What point t writes back is block t of the grouped product of the argument arrays. -/
theorem flushed_eq (hO : Ok m) (c : Dev nD) (t : Fin (cfgM m hO).N) :
    (dats m hO 0 c).flushed 2 t = (((cfgM m hO).win 2).blk t).view.read (Elt Ideal)
      (G (m ((c : Thread nD τ).loc main_arg0)) (m ((c : Thread nD τ).loc main_arg1))) := by
  show ((cfgM m hO).win 2).cut (grid0.coords t) ((dats m hO 0 c).after 2 t) = _
  have hout : outsAt0 m hO c t = k0_pay1 (iblk m hO c 1 t) (iblk m hO c 0 t) :=
    out_eq (F := Ideal) c (grid0.coords t) (ms0_0 m hO t) (hs0_0 m hO t) (ms0_1 m hO t) (hs0_1 m hO t) (ms0_2 m hO t) (hs0_2 m hO t)
      (iblk m hO c 0 t) (iblk m hO c 1 t) (tbl m 0)
  rw [after0_2, hout]
  have ht := N256 m hO t
  refine funext fun (j : S512x1024.Idx) => ?_
  obtain ⟨p, q, rfl⟩ : ∃ (p : Fin 512) (q : Fin 1024), j = ix2 p q := ⟨j 0, j 1, eq_ix2 j⟩
  show k0_pay1 (iblk m hO c 1 t) (iblk m hO c 0 t) (ix2 p q)
    = G (m ((c : Thread nD τ).loc main_arg0)) (m ((c : Thread nD τ).loc main_arg1)) ((((cfgM m hO).win 2).blk t).view.emb (ix2 p q))
  refine (pay_apply _ _ p q).trans ?_
  rw [emb2 m hO t p q ⟨t.val % 32 * 512 + p.val, by omega⟩ ⟨t.val / 32 * 1024 + q.val, by omega⟩ rfl rfl]
  unfold G
  refine Finset.sum_congr rfl fun k _ => ?_
  rw [blk0_apply m hO c t p k ⟨t.val % 32 * 512 + p.val, by omega⟩ rfl,
    blk1_apply m hO c t k q (grpIdx (t.val % 32 * 512 + p.val)) ⟨t.val / 32 * 1024 + q.val, by omega⟩
      (grp_tile (t.val % 32) p.val p.isLt) rfl]

/-- Every entry of the result lies in some point's output block: row r, column c in the block of row tile r / 512 and
    column tile c / 1024, which is point 32 (c / 1024) + r / 512. -/
theorem cover (hO : Ok m) (j : S16384x8192.Idx) :
    ∃ t : Fin (cfgM m hO).N, ((cfgM m hO).win 2).flush t = true ∧ j ∈ (((cfgM m hO).win 2).blk t).view.set := by
  have h0 : (j 0).val < 16384 := (j 0).isLt
  have h1 : (j 1).val < 8192 := (j 1).isLt
  have hN : (j 1).val / 1024 * 32 + (j 0).val / 512 < (cfgM m hO).N := by
    show _ < grid0.N
    have e : grid0.N = 256 := N_0
    omega
  refine ⟨⟨(j 1).val / 1024 * 32 + (j 0).val / 512, hN⟩, flush0_2 (adm m hO) _, ?_⟩
  have hs : (((cfgM m hO).win 2).blk ⟨(j 1).val / 1024 * 32 + (j 0).val / 512, hN⟩).view.set
      = (((cfgM m hO).win 2).rect ⟨(j 1).val / 1024 * 32 + (j 0).val / 512, hN⟩).set := View.set_slice_whole main_v1 _
  rw [hs]
  refine Rect.mem_set_unit.mpr ?_
  have hi : ((cfgM m hO).win 2).index ⟨(j 1).val / 1024 * 32 + (j 0).val / 512, hN⟩
      = ![(grid0.coords ⟨(j 1).val / 1024 * 32 + (j 0).val / 512, hN⟩ 1).val, (grid0.coords ⟨(j 1).val / 1024 * 32 + (j 0).val / 512, hN⟩ 0).val] :=
    idx2 (grid0.coords _)
  have hc := coords_val ⟨(j 1).val / 1024 * 32 + (j 0).val / 512, hN⟩
  intro a
  match a with
  | ⟨0, _⟩ =>
    show ((cfgM m hO).win 2).index ⟨_, hN⟩ (0 : Fin 2) * 512 ≤ (j 0).val ∧ (j 0).val < ((cfgM m hO).win 2).index ⟨_, hN⟩ (0 : Fin 2) * 512 + 512
    rw [hi]
    show (grid0.coords ⟨_, hN⟩ 1).val * 512 ≤ (j 0).val ∧ (j 0).val < (grid0.coords ⟨_, hN⟩ 1).val * 512 + 512
    rw [hc.2]; show ((j 1).val / 1024 * 32 + (j 0).val / 512) % 32 * 512 ≤ _ ∧ _ < ((j 1).val / 1024 * 32 + (j 0).val / 512) % 32 * 512 + 512
    omega
  | ⟨1, _⟩ =>
    show ((cfgM m hO).win 2).index ⟨_, hN⟩ (1 : Fin 2) * 1024 ≤ (j 1).val ∧ (j 1).val < ((cfgM m hO).win 2).index ⟨_, hN⟩ (1 : Fin 2) * 1024 + 1024
    rw [hi]
    show (grid0.coords ⟨_, hN⟩ 0).val * 1024 ≤ (j 1).val ∧ (j 1).val < (grid0.coords ⟨_, hN⟩ 0).val * 1024 + 1024
    rw [hc.1]; show ((j 1).val / 1024 * 32 + (j 0).val / 512) / 32 * 1024 ≤ _ ∧ _ < ((j 1).val / 1024 * 32 + (j 0).val / 512) / 32 * 1024 + 1024
    omega

/-- So the result array ends holding the grouped product of the argument arrays. -/
theorem final (hO : Ok m) (c : Dev nD) :
    (dats m hO 0 c).arrAt 2 (cfgM m hO).N = G (m ((c : Thread nD τ).loc main_arg0)) (m ((c : Thread nD τ).loc main_arg1)) :=
  (dats m hO 0 c).arrAt_eq_of_cover 2 _ (fun t _ => flushed_eq m hO c t) (cover m hO)

/-- The kernel's run with its result named. -/
theorem run : θ_run defs (onTc (τ := τ) (main (F := Ideal))) ⟨m, fun _ => 0, ρ⟩ fun r => ∀ c : Dev nD,
      r.2.mem ((c.tc : Thread nD τ).loc main_v1) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (final m (ok m) c),
      ((h c).2 main_arg0 (by decide : main_arg0 ∈ Pipeline.restRefs sig spec0)).trans (V_main_arg0 m c),
      ((h c).1 1).trans (((dats m (ok m) 0 c).arrAt_in 1 rfl _).trans ((A_eq m (ok m) c 1).trans (V_main_arg1 m c)))⟩)
    (run_main m ρ (ok m))

end Cert.KernelIdeal.Grouped

end
-- ==== Proof.ReferenceGrouped.lean ====
/-
  The reference computes the grouped product.

  The reference cuts the left array h into its eight row groups (rows 0–1023, 1024–2559, 2560–4607, 4608–6655,
  6656–9215, 9216–11263, 11264–14335, 14336–16383), multiplies group g by matrix g of the weights w, and lays
  the eight products end to end along the rows.  Read at (r, c): the concatenation takes the piece whose span
  of rows holds r, at row r minus the rows before it; that piece, a product of a slice of h with a slice of w,
  is the sum over k of h[r, k] * w[g, k, c] (a slice reads its operand at the shifted index, dropping the
  weights' unit axis keeps (k, c)); and g, the piece's number, is the group of r.  So the result is the
  specification's G.
-/
import proofs.«173559_j31877247271320_2_alg».proof.Proof.Gen.ReferenceIdeal.Read
import proofs.«173559_j31877247271320_2_alg».proof.Proof.GroupSpec
import Idealize.ShloMosaic.Lib.Pipeline.Value
import Idealize.ShloMosaic.Lib.ValueIdx

set_option maxRecDepth 16384

noncomputable section

namespace Cert.ReferenceIdeal.Grouped

open Cert.ReferenceIdeal Cert.ReferenceIdeal.Gen Cert.GroupSpec
open Idealize.ShloMosaic Idealize.ShloMosaic.ValueIdx

/-- Group 0: rows 0 to 1023 of h times matrix 0 of w, read at an index. -/
theorem piece0 (x0 : (⟨S16384x2048, .f32⟩ : BufTy).Contents (Elt Ideal)) (x1 : (⟨S8x2048x8192, .f32⟩ : BufTy).Contents (Elt Ideal))
    (i : S1024x8192.Idx) (j : S16384x8192.Idx) (hr : 0 + (i 0).val = (j 0).val) (hc : (i 1).val = (j 1).val) :
    Read.val_main_v3 (F := Ideal) x0 x1 i = ∑ k : Fin 2048, x0 (ix2 (j 0) k) * x1 (ix3 (0 : Fin 8) k (j 1)) := by
  rw [Read.val_main_v3_apply]
  refine Finset.sum_congr rfl fun k _ => ?_
  rw [Read.val_main_v0_apply, Read.val_main_v2_apply, Read.val_main_v1_apply]
  have hk : k.val < 2048 := k.isLt
  have hc' : (j 1).val < 8192 := (j 1).isLt
  have e0 : Read.idx_main_v0 (Read.lidx_main_v3 i k) = ix2 (j 0) k := funext fun a => Fin.ext (by
    match a with
    | ⟨0, _⟩ => show (i 0).val = (j 0).val; omega
    | ⟨1, _⟩ => rfl)
  have e1 : Read.idx_main_v1 (Read.idx_main_v2 (Read.ridx_main_v3 i k)) = ix3 (0 : Fin 8) k (j 1) := funext fun a => Fin.ext (by
    match a with
    | ⟨0, _⟩ => rfl
    | ⟨1, _⟩ => show (k.val * 8192 + (i 1).val) / 8192 % 2048 = k.val; omega
    | ⟨2, _⟩ => show (k.val * 8192 + (i 1).val) % 8192 = (j 1).val; omega)
  rw [e0, e1]
  rfl

/-- Group 1: rows 1024 to 2559 of h times matrix 1 of w, read at an index. -/
theorem piece1 (x0 : (⟨S16384x2048, .f32⟩ : BufTy).Contents (Elt Ideal)) (x1 : (⟨S8x2048x8192, .f32⟩ : BufTy).Contents (Elt Ideal))
    (i : S1536x8192.Idx) (j : S16384x8192.Idx) (hr : 1024 + (i 0).val = (j 0).val) (hc : (i 1).val = (j 1).val) :
    Read.val_main_v7 (F := Ideal) x0 x1 i = ∑ k : Fin 2048, x0 (ix2 (j 0) k) * x1 (ix3 (1 : Fin 8) k (j 1)) := by
  rw [Read.val_main_v7_apply]
  refine Finset.sum_congr rfl fun k _ => ?_
  rw [Read.val_main_v4_apply, Read.val_main_v6_apply, Read.val_main_v5_apply]
  have hk : k.val < 2048 := k.isLt
  have hc' : (j 1).val < 8192 := (j 1).isLt
  have e0 : Read.idx_main_v4 (Read.lidx_main_v7 i k) = ix2 (j 0) k := funext fun a => Fin.ext (by
    match a with
    | ⟨0, _⟩ => show 1024 + (i 0).val = (j 0).val; omega
    | ⟨1, _⟩ => rfl)
  have e1 : Read.idx_main_v5 (Read.idx_main_v6 (Read.ridx_main_v7 i k)) = ix3 (1 : Fin 8) k (j 1) := funext fun a => Fin.ext (by
    match a with
    | ⟨0, _⟩ => rfl
    | ⟨1, _⟩ => show (k.val * 8192 + (i 1).val) / 8192 % 2048 = k.val; omega
    | ⟨2, _⟩ => show (k.val * 8192 + (i 1).val) % 8192 = (j 1).val; omega)
  rw [e0, e1]
  rfl

/-- Group 2: rows 2560 to 4607 of h times matrix 2 of w, read at an index. -/
theorem piece2 (x0 : (⟨S16384x2048, .f32⟩ : BufTy).Contents (Elt Ideal)) (x1 : (⟨S8x2048x8192, .f32⟩ : BufTy).Contents (Elt Ideal))
    (i : S2048x8192.Idx) (j : S16384x8192.Idx) (hr : 2560 + (i 0).val = (j 0).val) (hc : (i 1).val = (j 1).val) :
    Read.val_main_v11 (F := Ideal) x0 x1 i = ∑ k : Fin 2048, x0 (ix2 (j 0) k) * x1 (ix3 (2 : Fin 8) k (j 1)) := by
  rw [Read.val_main_v11_apply]
  refine Finset.sum_congr rfl fun k _ => ?_
  rw [Read.val_main_v8_apply, Read.val_main_v10_apply, Read.val_main_v9_apply]
  have hk : k.val < 2048 := k.isLt
  have hc' : (j 1).val < 8192 := (j 1).isLt
  have e0 : Read.idx_main_v8 (Read.lidx_main_v11 i k) = ix2 (j 0) k := funext fun a => Fin.ext (by
    match a with
    | ⟨0, _⟩ => show 2560 + (i 0).val = (j 0).val; omega
    | ⟨1, _⟩ => rfl)
  have e1 : Read.idx_main_v9 (Read.idx_main_v10 (Read.ridx_main_v11 i k)) = ix3 (2 : Fin 8) k (j 1) := funext fun a => Fin.ext (by
    match a with
    | ⟨0, _⟩ => rfl
    | ⟨1, _⟩ => show (k.val * 8192 + (i 1).val) / 8192 % 2048 = k.val; omega
    | ⟨2, _⟩ => show (k.val * 8192 + (i 1).val) % 8192 = (j 1).val; omega)
  rw [e0, e1]
  rfl

/-- Group 3: rows 4608 to 6655 of h times matrix 3 of w, read at an index. -/
theorem piece3 (x0 : (⟨S16384x2048, .f32⟩ : BufTy).Contents (Elt Ideal)) (x1 : (⟨S8x2048x8192, .f32⟩ : BufTy).Contents (Elt Ideal))
    (i : S2048x8192.Idx) (j : S16384x8192.Idx) (hr : 4608 + (i 0).val = (j 0).val) (hc : (i 1).val = (j 1).val) :
    Read.val_main_v15 (F := Ideal) x0 x1 i = ∑ k : Fin 2048, x0 (ix2 (j 0) k) * x1 (ix3 (3 : Fin 8) k (j 1)) := by
  rw [Read.val_main_v15_apply]
  refine Finset.sum_congr rfl fun k _ => ?_
  rw [Read.val_main_v12_apply, Read.val_main_v14_apply, Read.val_main_v13_apply]
  have hk : k.val < 2048 := k.isLt
  have hc' : (j 1).val < 8192 := (j 1).isLt
  have e0 : Read.idx_main_v12 (Read.lidx_main_v15 i k) = ix2 (j 0) k := funext fun a => Fin.ext (by
    match a with
    | ⟨0, _⟩ => show 4608 + (i 0).val = (j 0).val; omega
    | ⟨1, _⟩ => rfl)
  have e1 : Read.idx_main_v13 (Read.idx_main_v14 (Read.ridx_main_v15 i k)) = ix3 (3 : Fin 8) k (j 1) := funext fun a => Fin.ext (by
    match a with
    | ⟨0, _⟩ => rfl
    | ⟨1, _⟩ => show (k.val * 8192 + (i 1).val) / 8192 % 2048 = k.val; omega
    | ⟨2, _⟩ => show (k.val * 8192 + (i 1).val) % 8192 = (j 1).val; omega)
  rw [e0, e1]
  rfl

/-- Group 4: rows 6656 to 9215 of h times matrix 4 of w, read at an index. -/
theorem piece4 (x0 : (⟨S16384x2048, .f32⟩ : BufTy).Contents (Elt Ideal)) (x1 : (⟨S8x2048x8192, .f32⟩ : BufTy).Contents (Elt Ideal))
    (i : S2560x8192.Idx) (j : S16384x8192.Idx) (hr : 6656 + (i 0).val = (j 0).val) (hc : (i 1).val = (j 1).val) :
    Read.val_main_v19 (F := Ideal) x0 x1 i = ∑ k : Fin 2048, x0 (ix2 (j 0) k) * x1 (ix3 (4 : Fin 8) k (j 1)) := by
  rw [Read.val_main_v19_apply]
  refine Finset.sum_congr rfl fun k _ => ?_
  rw [Read.val_main_v16_apply, Read.val_main_v18_apply, Read.val_main_v17_apply]
  have hk : k.val < 2048 := k.isLt
  have hc' : (j 1).val < 8192 := (j 1).isLt
  have e0 : Read.idx_main_v16 (Read.lidx_main_v19 i k) = ix2 (j 0) k := funext fun a => Fin.ext (by
    match a with
    | ⟨0, _⟩ => show 6656 + (i 0).val = (j 0).val; omega
    | ⟨1, _⟩ => rfl)
  have e1 : Read.idx_main_v17 (Read.idx_main_v18 (Read.ridx_main_v19 i k)) = ix3 (4 : Fin 8) k (j 1) := funext fun a => Fin.ext (by
    match a with
    | ⟨0, _⟩ => rfl
    | ⟨1, _⟩ => show (k.val * 8192 + (i 1).val) / 8192 % 2048 = k.val; omega
    | ⟨2, _⟩ => show (k.val * 8192 + (i 1).val) % 8192 = (j 1).val; omega)
  rw [e0, e1]
  rfl

/-- Group 5: rows 9216 to 11263 of h times matrix 5 of w, read at an index. -/
theorem piece5 (x0 : (⟨S16384x2048, .f32⟩ : BufTy).Contents (Elt Ideal)) (x1 : (⟨S8x2048x8192, .f32⟩ : BufTy).Contents (Elt Ideal))
    (i : S2048x8192.Idx) (j : S16384x8192.Idx) (hr : 9216 + (i 0).val = (j 0).val) (hc : (i 1).val = (j 1).val) :
    Read.val_main_v23 (F := Ideal) x0 x1 i = ∑ k : Fin 2048, x0 (ix2 (j 0) k) * x1 (ix3 (5 : Fin 8) k (j 1)) := by
  rw [Read.val_main_v23_apply]
  refine Finset.sum_congr rfl fun k _ => ?_
  rw [Read.val_main_v20_apply, Read.val_main_v22_apply, Read.val_main_v21_apply]
  have hk : k.val < 2048 := k.isLt
  have hc' : (j 1).val < 8192 := (j 1).isLt
  have e0 : Read.idx_main_v20 (Read.lidx_main_v23 i k) = ix2 (j 0) k := funext fun a => Fin.ext (by
    match a with
    | ⟨0, _⟩ => show 9216 + (i 0).val = (j 0).val; omega
    | ⟨1, _⟩ => rfl)
  have e1 : Read.idx_main_v21 (Read.idx_main_v22 (Read.ridx_main_v23 i k)) = ix3 (5 : Fin 8) k (j 1) := funext fun a => Fin.ext (by
    match a with
    | ⟨0, _⟩ => rfl
    | ⟨1, _⟩ => show (k.val * 8192 + (i 1).val) / 8192 % 2048 = k.val; omega
    | ⟨2, _⟩ => show (k.val * 8192 + (i 1).val) % 8192 = (j 1).val; omega)
  rw [e0, e1]
  rfl

/-- Group 6: rows 11264 to 14335 of h times matrix 6 of w, read at an index. -/
theorem piece6 (x0 : (⟨S16384x2048, .f32⟩ : BufTy).Contents (Elt Ideal)) (x1 : (⟨S8x2048x8192, .f32⟩ : BufTy).Contents (Elt Ideal))
    (i : S3072x8192.Idx) (j : S16384x8192.Idx) (hr : 11264 + (i 0).val = (j 0).val) (hc : (i 1).val = (j 1).val) :
    Read.val_main_v27 (F := Ideal) x0 x1 i = ∑ k : Fin 2048, x0 (ix2 (j 0) k) * x1 (ix3 (6 : Fin 8) k (j 1)) := by
  rw [Read.val_main_v27_apply]
  refine Finset.sum_congr rfl fun k _ => ?_
  rw [Read.val_main_v24_apply, Read.val_main_v26_apply, Read.val_main_v25_apply]
  have hk : k.val < 2048 := k.isLt
  have hc' : (j 1).val < 8192 := (j 1).isLt
  have e0 : Read.idx_main_v24 (Read.lidx_main_v27 i k) = ix2 (j 0) k := funext fun a => Fin.ext (by
    match a with
    | ⟨0, _⟩ => show 11264 + (i 0).val = (j 0).val; omega
    | ⟨1, _⟩ => rfl)
  have e1 : Read.idx_main_v25 (Read.idx_main_v26 (Read.ridx_main_v27 i k)) = ix3 (6 : Fin 8) k (j 1) := funext fun a => Fin.ext (by
    match a with
    | ⟨0, _⟩ => rfl
    | ⟨1, _⟩ => show (k.val * 8192 + (i 1).val) / 8192 % 2048 = k.val; omega
    | ⟨2, _⟩ => show (k.val * 8192 + (i 1).val) % 8192 = (j 1).val; omega)
  rw [e0, e1]
  rfl

/-- Group 7: rows 14336 to 16383 of h times matrix 7 of w, read at an index. -/
theorem piece7 (x0 : (⟨S16384x2048, .f32⟩ : BufTy).Contents (Elt Ideal)) (x1 : (⟨S8x2048x8192, .f32⟩ : BufTy).Contents (Elt Ideal))
    (i : S2048x8192.Idx) (j : S16384x8192.Idx) (hr : 14336 + (i 0).val = (j 0).val) (hc : (i 1).val = (j 1).val) :
    Read.val_main_v31 (F := Ideal) x0 x1 i = ∑ k : Fin 2048, x0 (ix2 (j 0) k) * x1 (ix3 (7 : Fin 8) k (j 1)) := by
  rw [Read.val_main_v31_apply]
  refine Finset.sum_congr rfl fun k _ => ?_
  rw [Read.val_main_v28_apply, Read.val_main_v30_apply, Read.val_main_v29_apply]
  have hk : k.val < 2048 := k.isLt
  have hc' : (j 1).val < 8192 := (j 1).isLt
  have e0 : Read.idx_main_v28 (Read.lidx_main_v31 i k) = ix2 (j 0) k := funext fun a => Fin.ext (by
    match a with
    | ⟨0, _⟩ => show 14336 + (i 0).val = (j 0).val; omega
    | ⟨1, _⟩ => rfl)
  have e1 : Read.idx_main_v29 (Read.idx_main_v30 (Read.ridx_main_v31 i k)) = ix3 (7 : Fin 8) k (j 1) := funext fun a => Fin.ext (by
    match a with
    | ⟨0, _⟩ => rfl
    | ⟨1, _⟩ => show (k.val * 8192 + (i 1).val) / 8192 % 2048 = k.val; omega
    | ⟨2, _⟩ => show (k.val * 8192 + (i 1).val) % 8192 = (j 1).val; omega)
  rw [e0, e1]
  rfl

set_option maxRecDepth 65536 in
/-- The reference's result is the grouped product: the concatenation read at row r is the piece whose span holds r,
    and that piece is the product of r's rows with the matrix of r's group. -/
theorem ref_eq (x0 : (⟨S16384x2048, .f32⟩ : BufTy).Contents (Elt Ideal)) (x1 : (⟨S8x2048x8192, .f32⟩ : BufTy).Contents (Elt Ideal)) :
    Read.val_main_v32 (F := Ideal) x0 x1 = G x0 x1 := by
  funext j
  unfold Read.val_main_v32
  have hj0 : (j 0).val < 16384 := (j 0).isLt
  by_cases h0 : (j 0).val < 1024
  · refine (concatenate_apply_piece (0 : Fin 2) _ _ j 0 (by show (0 : Nat) < 8; omega) S1024x8192 _ rfl rfl 0 rfl
      (ix2 ⟨(j 0).val - 0, by omega⟩ (j 1)) (fun b hb => by
        match b with
        | ⟨0, _⟩ => exact absurd rfl hb
        | ⟨1, _⟩ => rfl) (by show 0 + ((j 0).val - 0) = (j 0).val; omega)).trans ?_
    rw [piece0 x0 x1 _ j (by show 0 + ((j 0).val - 0) = (j 0).val; omega) rfl]
    have hg : grpIdx (j 0).val = (0 : Fin 8) := Fin.ext (by show grp (j 0).val = 0; unfold grp; split_ifs <;> omega)
    unfold G
    rw [hg]
  by_cases h1 : (j 0).val < 2560
  · refine (concatenate_apply_piece (0 : Fin 2) _ _ j 1 (by show (1 : Nat) < 8; omega) S1536x8192 _ rfl rfl 1024 rfl
      (ix2 ⟨(j 0).val - 1024, by omega⟩ (j 1)) (fun b hb => by
        match b with
        | ⟨0, _⟩ => exact absurd rfl hb
        | ⟨1, _⟩ => rfl) (by show 1024 + ((j 0).val - 1024) = (j 0).val; omega)).trans ?_
    rw [piece1 x0 x1 _ j (by show 1024 + ((j 0).val - 1024) = (j 0).val; omega) rfl]
    have hg : grpIdx (j 0).val = (1 : Fin 8) := Fin.ext (by show grp (j 0).val = 1; unfold grp; split_ifs <;> omega)
    unfold G
    rw [hg]
  by_cases h2 : (j 0).val < 4608
  · refine (concatenate_apply_piece (0 : Fin 2) _ _ j 2 (by show (2 : Nat) < 8; omega) S2048x8192 _ rfl rfl 2560 rfl
      (ix2 ⟨(j 0).val - 2560, by omega⟩ (j 1)) (fun b hb => by
        match b with
        | ⟨0, _⟩ => exact absurd rfl hb
        | ⟨1, _⟩ => rfl) (by show 2560 + ((j 0).val - 2560) = (j 0).val; omega)).trans ?_
    rw [piece2 x0 x1 _ j (by show 2560 + ((j 0).val - 2560) = (j 0).val; omega) rfl]
    have hg : grpIdx (j 0).val = (2 : Fin 8) := Fin.ext (by show grp (j 0).val = 2; unfold grp; split_ifs <;> omega)
    unfold G
    rw [hg]
  by_cases h3 : (j 0).val < 6656
  · refine (concatenate_apply_piece (0 : Fin 2) _ _ j 3 (by show (3 : Nat) < 8; omega) S2048x8192 _ rfl rfl 4608 rfl
      (ix2 ⟨(j 0).val - 4608, by omega⟩ (j 1)) (fun b hb => by
        match b with
        | ⟨0, _⟩ => exact absurd rfl hb
        | ⟨1, _⟩ => rfl) (by show 4608 + ((j 0).val - 4608) = (j 0).val; omega)).trans ?_
    rw [piece3 x0 x1 _ j (by show 4608 + ((j 0).val - 4608) = (j 0).val; omega) rfl]
    have hg : grpIdx (j 0).val = (3 : Fin 8) := Fin.ext (by show grp (j 0).val = 3; unfold grp; split_ifs <;> omega)
    unfold G
    rw [hg]
  by_cases h4 : (j 0).val < 9216
  · refine (concatenate_apply_piece (0 : Fin 2) _ _ j 4 (by show (4 : Nat) < 8; omega) S2560x8192 _ rfl rfl 6656 rfl
      (ix2 ⟨(j 0).val - 6656, by omega⟩ (j 1)) (fun b hb => by
        match b with
        | ⟨0, _⟩ => exact absurd rfl hb
        | ⟨1, _⟩ => rfl) (by show 6656 + ((j 0).val - 6656) = (j 0).val; omega)).trans ?_
    rw [piece4 x0 x1 _ j (by show 6656 + ((j 0).val - 6656) = (j 0).val; omega) rfl]
    have hg : grpIdx (j 0).val = (4 : Fin 8) := Fin.ext (by show grp (j 0).val = 4; unfold grp; split_ifs <;> omega)
    unfold G
    rw [hg]
  by_cases h5 : (j 0).val < 11264
  · refine (concatenate_apply_piece (0 : Fin 2) _ _ j 5 (by show (5 : Nat) < 8; omega) S2048x8192 _ rfl rfl 9216 rfl
      (ix2 ⟨(j 0).val - 9216, by omega⟩ (j 1)) (fun b hb => by
        match b with
        | ⟨0, _⟩ => exact absurd rfl hb
        | ⟨1, _⟩ => rfl) (by show 9216 + ((j 0).val - 9216) = (j 0).val; omega)).trans ?_
    rw [piece5 x0 x1 _ j (by show 9216 + ((j 0).val - 9216) = (j 0).val; omega) rfl]
    have hg : grpIdx (j 0).val = (5 : Fin 8) := Fin.ext (by show grp (j 0).val = 5; unfold grp; split_ifs <;> omega)
    unfold G
    rw [hg]
  by_cases h6 : (j 0).val < 14336
  · refine (concatenate_apply_piece (0 : Fin 2) _ _ j 6 (by show (6 : Nat) < 8; omega) S3072x8192 _ rfl rfl 11264 rfl
      (ix2 ⟨(j 0).val - 11264, by omega⟩ (j 1)) (fun b hb => by
        match b with
        | ⟨0, _⟩ => exact absurd rfl hb
        | ⟨1, _⟩ => rfl) (by show 11264 + ((j 0).val - 11264) = (j 0).val; omega)).trans ?_
    rw [piece6 x0 x1 _ j (by show 11264 + ((j 0).val - 11264) = (j 0).val; omega) rfl]
    have hg : grpIdx (j 0).val = (6 : Fin 8) := Fin.ext (by show grp (j 0).val = 6; unfold grp; split_ifs <;> omega)
    unfold G
    rw [hg]
  · refine (concatenate_apply_piece (0 : Fin 2) _ _ j 7 (by show (7 : Nat) < 8; omega) S2048x8192 _ rfl rfl 14336 rfl
      (ix2 ⟨(j 0).val - 14336, by omega⟩ (j 1)) (fun b hb => by
        match b with
        | ⟨0, _⟩ => exact absurd rfl hb
        | ⟨1, _⟩ => rfl) (by show 14336 + ((j 0).val - 14336) = (j 0).val; omega)).trans ?_
    rw [piece7 x0 x1 _ j (by show 14336 + ((j 0).val - 14336) = (j 0).val; omega) rfl]
    have hg : grpIdx (j 0).val = (7 : Fin 8) := Fin.ext (by show grp (j 0).val = 7; unfold grp; split_ifs <;> omega)
    unfold G
    rw [hg]

end Cert.ReferenceIdeal.Grouped

end
-- ==== Proof.lean ====
/-
  A grouped matrix product against its reference, over the extended reals.

  Both programs take h : [16384, 2048] and w : [8, 2048, 8192].  The rows of h fall into eight consecutive
  groups of 1024, 1536, 2048, 2048, 2560, 2048, 3072 and 2048 rows, and row r of the result is row r of h
  times the matrix of r's group:  out[r, c] = ∑ k, h[r, k] * w[grp r, k, c]   (GroupSpec.lean, `G`).

  The reference slices h into the eight groups, multiplies each by its matrix and concatenates the products
  along the rows (ReferenceGrouped.lean).  The kernel walks a grid of 512-row by 1024-column output tiles and
  picks each row tile's matrix from a 32-word table of groups that the program itself writes as a literal
  (KernelIdealTable.lean, KernelIdealPayload.lean, KernelIdealValue.lean); every group boundary is a multiple of
  512, so a row tile never straddles two groups.  Both results are the same sum of the same products, term by
  term, so no law of the extended reals beyond rewriting indices is used and the inputs' finiteness is not needed.

  The kernel narrows h (and, inside the body, the weight tile) to bf16 before multiplying; on extended reals a
  change of float format is the identity.  The idealization rewrote no operation, so the kernel's idealization
  is the kernel's own text.

  The frames: the kernel's region runs under the side condition that every table-indexed weight block lies
  inside the weights, which holds because every table word is below 8 (KernelTable.lean for the word-level
  program, KernelIdealTable.lean for the idealized one).
-/
import proofs.«173559_j31877247271320_2_alg».proof.Defs
import proofs.«173559_j31877247271320_2_alg».proof.Proof.Gen.Kernel
import proofs.«173559_j31877247271320_2_alg».proof.Proof.Gen.Kernel.Skeleton
import proofs.«173559_j31877247271320_2_alg».proof.Proof.Gen.Kernel.Launch
import proofs.«173559_j31877247271320_2_alg».proof.Proof.Gen.Kernel.Points
import proofs.«173559_j31877247271320_2_alg».proof.Proof.Gen.Kernel.Frame
import proofs.«173559_j31877247271320_2_alg».proof.Proof.Gen.KernelIdeal
import proofs.«173559_j31877247271320_2_alg».proof.Proof.Gen.KernelIdeal.Skeleton
import proofs.«173559_j31877247271320_2_alg».proof.Proof.Gen.KernelIdeal.Launch
import proofs.«173559_j31877247271320_2_alg».proof.Proof.Gen.KernelIdeal.Points
import proofs.«173559_j31877247271320_2_alg».proof.Proof.Gen.KernelIdeal.Frame
import proofs.«173559_j31877247271320_2_alg».proof.Proof.Gen.ReferenceIdeal
import proofs.«173559_j31877247271320_2_alg».proof.Proof.Gen.ReferenceIdeal.Run
import proofs.«173559_j31877247271320_2_alg».proof.Proof.Gen.ReferenceIdeal.Read
import proofs.«173559_j31877247271320_2_alg».proof.Proof.Gen.Pre_finite_inputs
import proofs.«173559_j31877247271320_2_alg».proof.Proof.GroupSpec
import proofs.«173559_j31877247271320_2_alg».proof.Proof.KernelTable
import proofs.«173559_j31877247271320_2_alg».proof.Proof.KernelIdealTable
import proofs.«173559_j31877247271320_2_alg».proof.Proof.KernelIdealPayload
import proofs.«173559_j31877247271320_2_alg».proof.Proof.KernelIdealValue
import proofs.«173559_j31877247271320_2_alg».proof.Proof.ReferenceGrouped
import Idealize.ShloMosaic.Adequacy
import Idealize.ShloMosaic.Init

noncomputable section

namespace Cert.Proof

open Idealize.ShloMosaic Idealize.SL.Sem

/-- The word-level kernel runs and leaves its arguments unchanged: its region's side condition holds of the
    literal table. -/
theorem frame_kernel : Cert.frame_Kernel := fun m ρ _ => Cert.Kernel.Gen.frame m ρ (Cert.Kernel.Table.ok m)

/-- The same for the idealized kernel. -/
theorem frame_kernelIdeal : Cert.frame_KernelIdeal := fun m ρ _ =>
  Cert.KernelIdeal.Gen.frame m ρ (Cert.KernelIdeal.Table.ok m)

/-- The reference is a straight line of host operations: it runs, and its arguments are never written. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on h and w, both programs end with the grouped product G of h and w. -/
theorem algebraic : Cert.algebraic_KernelIdeal_ReferenceIdeal := by
  intro m ρ m' ρ' _ hagree
  refine ⟨_, Cert.KernelIdeal.Grouped.run m ρ, ?_⟩
  refine (θ_run Cert.ReferenceIdeal.defs _ _).mono (fun _ h c => ⟨?_, (h c).2⟩)
    (Cert.ReferenceIdeal.Value.run (F := Ideal) m' ρ')
  refine ((h c).1.trans ((Cert.ReferenceIdeal.Read.val_main_v32_eq _ _).trans
    (Cert.ReferenceIdeal.Grouped.ref_eq _ _))).trans ?_
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
